-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x8000 : Shape := ⟨3, ![32, 256, 8000]⟩
abbrev S32x64 : Shape := ⟨2, ![32, 64]⟩
abbrev S_ : Shape := ⟨0, ![]⟩

class Facts : Prop where
  bcast_S_S32x256x8000 : S_.BroadcastsInDim S32x256x8000 (![] : Fin 0 → Fin S32x256x8000.rank)
  reducesTo_S32x256x8000_S_d0_1_2 : S32x256x8000.ReducesTo [0, 1, 2] S_
  h_S_ : 0 < S_.numel

variable [Facts]

def fn {F : FTy → Type} [FloatOps F] (main_arg0 : FVec F S32x256x8000 .f32) (main_arg1 : IVec S32x64 32) : IVec S_ 1 :=
  let main_v0 : FVec F S32x256x8000 .f32 := Host.absf main_arg0
  let main_cst : FVec F S_ .f32 := constant S_ .f32 0x7F800000#32
  let main_v1 : FVec F S32x256x8000 .f32 := broadcastInDim S32x256x8000 ![] bcast_S_S32x256x8000 main_cst
  let main_v2 : IVec S32x256x8000 1 := cmpf .olt main_v0 main_v1
  let main_c : IVec S_ 1 := constantI S_ 1 1#1
  let main_v3 : IVec S_ 1 := (fun x v => Host.reduce IntOp.andi x v reducesTo_S32x256x8000_S_d0_1_2 h_S_) main_v2 main_c
  main_v3
-- ==== Kernel.lean ====
abbrev S32x256x8000 : Shape := ⟨3, ![32, 256, 8000]⟩
abbrev S32x64 : Shape := ⟨2, ![32, 64]⟩
abbrev S32x1x8000 : Shape := ⟨3, ![32, 1, 8000]⟩
abbrev S2x256x8000 : Shape := ⟨3, ![2, 256, 8000]⟩
abbrev S2x1x8000 : Shape := ⟨3, ![2, 1, 8000]⟩
abbrev S2x8000 : Shape := ⟨2, ![2, 8000]⟩
abbrev S32x8000 : Shape := ⟨2, ![32, 8000]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S32x64x2 : Shape := ⟨3, ![32, 64, 2]⟩

abbrev nBuf : Space → Nat
  | .hbm => 44
  | .vmem => 4
  | .smem => 0
  | _ => 0

abbrev bufTy : (tb : Table) → Fin (tcTables nBuf tb) → BufTy
  | .hbm, ⟨0, _⟩ => ⟨S32x256x8000, .f32⟩
  | .hbm, ⟨1, _⟩ => ⟨S32x64, .i32⟩
  | .hbm, ⟨2, _⟩ => ⟨S32x1x8000, .f32⟩
  | .hbm, ⟨3, _⟩ => ⟨S32x8000, .f32⟩
  | .hbm, ⟨4, _⟩ => ⟨S32, .i32⟩
  | .hbm, ⟨5, _⟩ => ⟨S32x1, .i32⟩
  | .hbm, ⟨6, _⟩ => ⟨S_, .f32⟩
  | .hbm, ⟨7, _⟩ => ⟨S32x8000, .f32⟩
  | .hbm, ⟨8, _⟩ => ⟨S_, .i32⟩
  | .hbm, ⟨9, _⟩ => ⟨S32x1, .i32⟩
  | .hbm, ⟨10, _⟩ => ⟨S32x1, .i1⟩
  | .hbm, ⟨11, _⟩ => ⟨S_, .i32⟩
  | .hbm, ⟨12, _⟩ => ⟨S32x1, .i32⟩
  | .hbm, ⟨13, _⟩ => ⟨S32x1, .i32⟩
  | .hbm, ⟨14, _⟩ => ⟨S32x1, .i32⟩
  | .hbm, ⟨15, _⟩ => ⟨S_, .i32⟩
  | .hbm, ⟨16, _⟩ => ⟨S32x64, .i32⟩
  | .hbm, ⟨17, _⟩ => ⟨S32x64, .i1⟩
  | .hbm, ⟨18, _⟩ => ⟨S_, .i32⟩
  | .hbm, ⟨19, _⟩ => ⟨S32x64, .i32⟩
  | .hbm, ⟨20, _⟩ => ⟨S32x64, .i32⟩
  | .hbm, ⟨21, _⟩ => ⟨S32x64, .i32⟩
  | .hbm, ⟨22, _⟩ => ⟨S32x64, .i32⟩
  | .hbm, ⟨23, _⟩ => ⟨S32x64x1, .i32⟩
  | .hbm, ⟨24, _⟩ => ⟨S32x64x1, .i32⟩
  | .hbm, ⟨25, _⟩ => ⟨S32x64x2, .i32⟩
  | .hbm, ⟨26, _⟩ => ⟨S_, .f32⟩
  | .hbm, ⟨27, _⟩ => ⟨S32x64, .f32⟩
  | .hbm, ⟨28, _⟩ => ⟨S32x8000, .f32⟩
  | .hbm, ⟨29, _⟩ => ⟨S_, .f32⟩
  | .hbm, ⟨30, _⟩ => ⟨S32x8000, .f32⟩
  | .hbm, ⟨31, _⟩ => ⟨S32x8000, .f32⟩
  | .hbm, ⟨32, _⟩ => ⟨S_, .f32⟩
  | .hbm, ⟨33, _⟩ => ⟨S32x8000, .f32⟩
  | .hbm, ⟨34, _⟩ => ⟨S32x8000, .f32⟩
  | .hbm, ⟨35, _⟩ => ⟨S32x8000, .f32⟩
  | .hbm, ⟨36, _⟩ => ⟨S32x8000, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S2x256x8000, .f32⟩
  | .local _ .vmem, ⟨1, _⟩ => ⟨S2x256x8000, .f32⟩
  | .local _ .vmem, ⟨2, _⟩ => ⟨S2x1x8000, .f32⟩
  | .local _ .vmem, ⟨3, _⟩ => ⟨S2x1x8000, .f32⟩
  | _, _ => ⟨S32x256x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x8000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x256x8000_S2x256x8000_0_0_0 : ∀ a, (![0, 0, 0] : Fin 3 → Nat) a + S2x256x8000.size a ≤ S2x256x8000.size a
  h_S2x256x8000 : 0 < S2x256x8000.numel
  reduces_S2x256x8000_S2x8000 : S2x256x8000.Reduces [1] S2x8000
  shapeCasts_S2x8000_S2x1x8000 : S2x8000.ShapeCasts S2x1x8000
  inb_S2x1x8000_S2x1x8000_0_0_0 : ∀ a, (![0, 0, 0] : Fin 3 → Nat) a + S2x1x8000.size a ≤ S2x1x8000.size a
  h_S2x1x8000 : 0 < S2x1x8000.numel
  shapeCasts_S32x1x8000_S32x8000 : S32x1x8000.ShapeCasts S32x8000
  bcast_S32_S32x1_0 : S32.BroadcastsInDim S32x1 (![0] : Fin 1 → Fin S32x1.rank)
  bcast_S_S32x8000 : S_.BroadcastsInDim S32x8000 (![] : Fin 0 → Fin S32x8000.rank)
  bcast_S_S32x1 : S_.BroadcastsInDim S32x1 (![] : Fin 0 → Fin S32x1.rank)
  bcast_S_S32x64 : S_.BroadcastsInDim S32x64 (![] : Fin 0 → Fin S32x64.rank)
  bcast_S32x1_S32x64_0_1 : S32x1.BroadcastsInDim S32x64 (![0, 1] : Fin 2 → Fin S32x64.rank)
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  reducesTo_S32x8000_S32_d1 : S32x8000.ReducesTo [1] S32
  h_S_ : 0 < S_.numel
  reducesTo_S32_S_d0 : S32.ReducesTo [0] S_
  scatter_S32x8000_S32x64x2_S32x64_n_01_01_2_wf : ScatterDims.WF S32x8000 S32x64x2 S32x64 [] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x8000.size a ≤ S32x256x8000.size a
  hwx0_0 : ∀ i : grid0.Coords, EltTy.bits .f32 = 32 ∨ (Rect.block (s := S32x256x8000) S2x256x8000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x8000.size a ≤ S32x1x8000.size a
  hwx0_1 : ∀ i : grid0.Coords, EltTy.bits .f32 = 32 ∨ (Rect.block (s := S32x1x8000) S2x1x8000.size (cc0_transform_1 i) (hinb0_1 i)).WholeWords (EltTy.packing .f32)

variable [Facts₀]

def scatter_S32x8000_S32x64x2_S32x64_n_01_01_2 : ScatterDims S32x8000 S32x64x2 S32x64 where
  updateWindowDims := []
  insertedWindowDims := [0, 1]
  scatterDimsToOperandDims := [0, 1]
  indexVectorDim := 2
  wf := scatter_S32x8000_S32x64x2_S32x64_n_01_01_2_wf

abbrev win0_0 : Pipeline.Window sig grid0 :=
  Pipeline.Window.ofSpec (Memref.whole main_arg0) S2x256x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x1x8000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x8000 : Shape := ⟨3, ![32, 256, 8000]⟩
abbrev S32x64 : Shape := ⟨2, ![32, 64]⟩
abbrev S_ : Shape := ⟨0, ![]⟩
abbrev S32x8000 : Shape := ⟨2, ![32, 8000]⟩
abbrev S32 : Shape := ⟨1, ![32]⟩
abbrev S32x1 : Shape := ⟨2, ![32, 1]⟩
abbrev S32x64x1 : Shape := ⟨3, ![32, 64, 1]⟩
abbrev S32x64x2 : Shape := ⟨3, ![32, 64, 2]⟩

abbrev nBuf : Space → Nat
  | .hbm => 47
  | .vmem => 0
  | .smem => 0
  | _ => 0

abbrev bufTy : (tb : Table) → Fin (tcTables nBuf tb) → BufTy
  | .hbm, ⟨0, _⟩ => ⟨S32x256x8000, .f32⟩
  | .hbm, ⟨1, _⟩ => ⟨S32x64, .i32⟩
  | .hbm, ⟨2, _⟩ => ⟨S_, .f32⟩
  | .hbm, ⟨3, _⟩ => ⟨S32x256x8000, .f32⟩
  | .hbm, ⟨4, _⟩ => ⟨S32x256x8000, .f32⟩
  | .hbm, ⟨5, _⟩ => ⟨S_, .f32⟩
  | .hbm, ⟨6, _⟩ => ⟨S32x8000, .f32⟩
  | .hbm, ⟨7, _⟩ => ⟨S32, .i32⟩
  | .hbm, ⟨8, _⟩ => ⟨S32x1, .i32⟩
  | .hbm, ⟨9, _⟩ => ⟨S_, .f32⟩
  | .hbm, ⟨10, _⟩ => ⟨S32x8000, .f32⟩
  | .hbm, ⟨11, _⟩ => ⟨S_, .i32⟩
  | .hbm, ⟨12, _⟩ => ⟨S32x1, .i32⟩
  | .hbm, ⟨13, _⟩ => ⟨S32x1, .i1⟩
  | .hbm, ⟨14, _⟩ => ⟨S_, .i32⟩
  | .hbm, ⟨15, _⟩ => ⟨S32x1, .i32⟩
  | .hbm, ⟨16, _⟩ => ⟨S32x1, .i32⟩
  | .hbm, ⟨17, _⟩ => ⟨S32x1, .i32⟩
  | .hbm, ⟨18, _⟩ => ⟨S_, .i32⟩
  | .hbm, ⟨19, _⟩ => ⟨S32x64, .i32⟩
  | .hbm, ⟨20, _⟩ => ⟨S32x64, .i1⟩
  | .hbm, ⟨21, _⟩ => ⟨S_, .i32⟩
  | .hbm, ⟨22, _⟩ => ⟨S32x64, .i32⟩
  | .hbm, ⟨23, _⟩ => ⟨S32x64, .i32⟩
  | .hbm, ⟨24, _⟩ => ⟨S32x64, .i32⟩
  | .hbm, ⟨25, _⟩ => ⟨S32x64, .i32⟩
  | .hbm, ⟨26, _⟩ => ⟨S32x64x1, .i32⟩
  | .hbm, ⟨27, _⟩ => ⟨S32x64x1, .i32⟩
  | .hbm, ⟨28, _⟩ => ⟨S32x64x2, .i32⟩
  | .hbm, ⟨29, _⟩ => ⟨S_, .f32⟩
  | .hbm, ⟨30, _⟩ => ⟨S32x64, .f32⟩
  | .hbm, ⟨31, _⟩ => ⟨S32x8000, .f32⟩
  | .hbm, ⟨32, _⟩ => ⟨S_, .f32⟩
  | .hbm, ⟨33, _⟩ => ⟨S32x8000, .f32⟩
  | .hbm, ⟨34, _⟩ => ⟨S32x8000, .f32⟩
  | .hbm, ⟨35, _⟩ => ⟨S_, .f32⟩
  | .hbm, ⟨36, _⟩ => ⟨S32x8000, .f32⟩
  | .hbm, ⟨37, _⟩ => ⟨S32x8000, .f32⟩
  | .hbm, ⟨38, _⟩ => ⟨S32x8000, .f32⟩
  | .hbm, ⟨39, _⟩ => ⟨S32x8000, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S32x256x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩

abbrev nD : Nat := 1
abbrev τ : Topo := Topo.v7x

variable {F : FTy → Type} [FloatOps F]

class Facts₀ : Prop where
  bcast_S_S32x256x8000 : S_.BroadcastsInDim S32x256x8000 (![] : Fin 0 → Fin S32x256x8000.rank)
  reducesTo_S32x256x8000_S32x8000_d1 : S32x256x8000.ReducesTo [1] S32x8000
  h_S_ : 0 < S_.numel
  bcast_S32_S32x1_0 : S32.BroadcastsInDim S32x1 (![0] : Fin 1 → Fin S32x1.rank)
  bcast_S_S32x8000 : S_.BroadcastsInDim S32x8000 (![] : Fin 0 → Fin S32x8000.rank)
  bcast_S_S32x1 : S_.BroadcastsInDim S32x1 (![] : Fin 0 → Fin S32x1.rank)
  bcast_S_S32x64 : S_.BroadcastsInDim S32x64 (![] : Fin 0 → Fin S32x64.rank)
  bcast_S32x1_S32x64_0_1 : S32x1.BroadcastsInDim S32x64 (![0, 1] : Fin 2 → Fin S32x64.rank)
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  reducesTo_S32x8000_S32_d1 : S32x8000.ReducesTo [1] S32
  reducesTo_S32_S_d0 : S32.ReducesTo [0] S_
  scatter_S32x8000_S32x64x2_S32x64_n_01_01_2_wf : ScatterDims.WF S32x8000 S32x64x2 S32x64 [] [0, 1] [0, 1] 2

variable [Facts₀]

def scatter_S32x8000_S32x64x2_S32x64_n_01_01_2 : ScatterDims S32x8000 S32x64x2 S32x64 where
  updateWindowDims := []
  insertedWindowDims := [0, 1]
  scatterDimsToOperandDims := [0, 1]
  indexVectorDim := 2
  wf := scatter_S32x8000_S32x64x2_S32x64_n_01_01_2_wf

class Facts : Prop extends Facts₀ where

variable [Facts]
-- ==== Proof.BodyValue.lean ====
/-
  What the kernel body stores, read at one index.

  The body loads its [2, 256, 8000] block, sums it over the middle (time) axis, adds one constant to every entry of
  the [2, 8000] result and stores that as a [2, 1, 8000] block.  So entry (a, 0, k) of the stored block is the sum over
  the 256 time steps t of the loaded block at (a, t, k), plus the constant: the unit axis the shape cast inserts does
  not move an entry's row-major position, the lane sum over one axis at the exact instance is the plain finite sum, and
  the broadcast constant reads the same at every index.
-/
import proofs.«124172_j89240830476767_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.TimeSum

open Cert.KernelIdeal Cert.KernelIdeal.Gen

/-- The index the lane sum inserts on the time axis: (a, t, k) over (a, k). -/
theorem lift_eq (h : S2x256x8000.Reduces [1] S2x8000) (a : Fin 2) (k : Fin 8000) (t : Fin 256) :
    h.lift (ix2 a k) t = ix3 a t k :=
  funext fun d => Fin.ext (by match d with | ⟨0, _⟩ => rfl | ⟨1, _⟩ => rfl | ⟨2, _⟩ => rfl)

/-- The lane sum over the time axis of a [2, 256, 8000] block, at (a, k): the sum over t of the block at (a, t, k). -/
theorem laneSum_apply (v0 : FVec Ideal S2x256x8000 .f32) (h : S2x256x8000.Reduces [1] S2x8000)
    (hφ : FKind.Formats .f32) (hacc : (0x00000000#32 : BitVec 32) = 0x00000000#32) (a : Fin 2) (k : Fin 8000) :
    multiReduction .add [1] S2x8000 v0 0x00000000#32 h hφ hacc (ix2 a k) = ∑ t : Fin 256, v0 (ix3 a t k) :=
  (Ideal.multiReduction_add_single v0 0x00000000#32 h hφ hacc (ix2 a k)).trans
    (Finset.sum_congr rfl fun t _ => congrArg v0 (lift_eq h a k t))

/-- The stored block at (a, 0, k): the column's sum over the 256 time steps plus the kernel's constant. -/
theorem pay_apply (v0 : FVec Ideal S2x256x8000 .f32) (a : Fin 2) (u : Fin 1) (k : Fin 8000) :
    k0_pay1 (F := Ideal) v0 (ix3 a u k) = (∑ t : Fin 256, v0 (ix3 a t k)) + Ideal.ofBits .f32 0x32DBE6FF#32 := by
  unfold k0_pay1
  refine (shapeCast_apply _ _ (ix3 a u k) (ix2 a k) ?_).trans ?_
  · rw [Shape.rowMajor_val_two, Shape.rowMajor_val_three]
    have hu : u.val = 0 := by omega
    show a.val * 8000 + k.val = (a.val * 1 + u.val) * 8000 + k.val
    rw [hu]; omega
  · refine (addf_apply _ _ (ix2 a k)).trans ?_
    exact congrArg (· + _) (laneSum_apply v0 _ _ _ a k)

end Cert.KernelIdeal.TimeSum

end
-- ==== Proof.RegionArray.lean ====
/-
  From the blocks to the array the region leaves.

  The grid has 16 points; point t reads rows 2t, 2t+1 of the [32, 256, 8000] argument (all time steps, all classes)
  and writes rows 2t, 2t+1 of the [32, 1, 8000] result.  So what point t writes back is block t of ONE function of the
  argument: entry (n, 0, k) is the sum over the time steps t' of the argument at (n, t', k), plus the kernel's
  constant.  Every row n lies in the block of point n / 2, so the 16 blocks cover the result and the array after the
  run is that function.
-/
import proofs.«124172_j89240830476767_1_alg».proof.Proof.Gen.KernelIdeal.Frame
import proofs.«124172_j89240830476767_1_alg».proof.Proof.BodyValue
import Idealize.ShloMosaic.Lib.Pipeline.Value
import Idealize.ShloMosaic.Lib.ValueIdx

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.TimeSum

open Cert.KernelIdeal Cert.KernelIdeal.Gen

variable (m : (ℓ : Loc nD τ sig) → Buf (Elt Ideal) ℓ) (ρ : Dev nD → PrngReg)

/-- The region's result as one function of the argument: at (n, 0, k) the column's sum over the 256 time steps plus
    the kernel's constant. -/
def colSums (X : S32x256x8000.Idx → Elt Ideal .f32) : S32x1x8000.Idx → Elt Ideal .f32 := fun i =>
  (∑ t : Fin 256, X (ix3 (n0 := 32) (n1 := 256) (n2 := 8000) ⟨(i 0).val, (i 0).isLt⟩ t ⟨(i 2).val, (i 2).isLt⟩))
    + Ideal.ofBits .f32 0x32DBE6FF#32

theorem hz : (![0, 0, 0] : Fin 3 → Nat) = fun _ => 0 := funext fun a => by fin_cases a <;> rfl

/-- The printed index maps over the grid: both windows' blocks sit at (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The input block at point t is rows 2t, 2t+1 of the argument as the region finds it. -/
theorem iblk_apply (c : Dev nD) (t : Fin cfg0.N) (x : S2x256x8000.Idx) (k : S32x256x8000.Idx)
    (hk0 : (k 0).val = 2 * t.val + (x 0).val) (hk1 : (k 1).val = (x 1).val) (hk2 : (k 2).val = (x 2).val) :
    (iblk m c 0 t : Vec Ideal S2x256x8000 .f32) x = V m c main_arg0 k := by
  obtain ⟨e0, e1, e2, -, -, -⟩ := idx_facts t
  unfold iblk
  rw [View.read_apply]
  show V m c main_arg0 _ = V m c main_arg0 k
  refine congrArg (V m c main_arg0) (funext fun a => Fin.ext ?_)
  match a with
  | ⟨0, _⟩ => show win0_0.index t (0 : Fin 3) * 2 + 1 * (x 0).val = (k 0).val; rw [e0, hk0]; omega
  | ⟨1, _⟩ => show win0_0.index t (1 : Fin 3) * 256 + 1 * (x 1).val = (k 1).val; rw [e1, hk1]; omega
  | ⟨2, _⟩ => show win0_0.index t (2 : Fin 3) * 8000 + 1 * (x 2).val = (k 2).val; rw [e2, hk2]; omega

/-- What the body stores from a block that is rows 2b, 2b+1 of an array `X`, at a block index sitting at array
    index i, is `colSums X` at i. -/
theorem store_eq (X : S32x256x8000.Idx → Elt Ideal .f32) (x0 : FVec Ideal S2x256x8000 .f32) (b : Nat)
    (hx : ∀ (x : S2x256x8000.Idx) (k : S32x256x8000.Idx), (k 0).val = 2 * b + (x 0).val → (k 1).val = (x 1).val →
      (k 2).val = (x 2).val → x0 x = X k)
    (y : S2x1x8000.Idx) (i : S32x1x8000.Idx) (hi0 : (i 0).val = 2 * b + (y 0).val) (hi2 : (i 2).val = (y 2).val) :
    k0_pay1 (F := Ideal) x0 y = colSums X i := by
  obtain ⟨a, u, k, rfl⟩ : ∃ (a : Fin 2) (u : Fin 1) (k : Fin 8000), y = ix3 a u k := ⟨y 0, y 1, y 2, eq_ix3 y⟩
  have h0 : (i 0).val = 2 * b + a.val := hi0
  have h2 : (i 2).val = k.val := hi2
  refine (pay_apply x0 a u k).trans ?_
  unfold colSums
  refine congrArg (· + _) (Finset.sum_congr rfl fun t _ => ?_)
  exact hx (ix3 a t k) _ h0 rfl h2

/-- What point t writes back is block t of `colSums` of the argument. -/
theorem flushed_eq (c : Dev nD) (t : Fin cfg0.N) :
    (dats m 0 c).flushed 1 t = ((cfg0.win 1).blk t).view.read (Elt Ideal) (colSums (V m c main_arg0)) := by
  show (cfg0.win 1).cut (grid0.coords t) ((dats m 0 c).after 1 t) = _
  rw [after0_1]
  unfold out0_1
  rw [View.canon_unit_zero hz]
  simp only [View.ld_unit_zero (S := S2x256x8000) hz]
  obtain ⟨-, -, -, e0, e1, e2⟩ := idx_facts t
  funext j
  show k0_pay1 (iblk m c 0 t) j = colSums (V m c main_arg0) (((cfg0.win 1).blk t).view.emb j)
  refine store_eq (V m c main_arg0) (iblk m c 0 t) t.val (fun x k h0 h1 h2 => iblk_apply m c t x k h0 h1 h2) j _ ?_ ?_
  · show win0_1.index t (0 : Fin 3) * 2 + 1 * (j 0).val = 2 * t.val + (j 0).val; rw [e0]; omega
  · show win0_1.index t (2 : Fin 3) * 8000 + 1 * (j 2).val = (j 2).val; rw [e2]; omega

/-- An index of the result array is in point t's block iff each coordinate is in the block's range on its axis. -/
theorem mem_blk (t : Fin cfg0.N) (i : S32x1x8000.Idx) :
    i ∈ ((cfg0.win 1).blk t).view.set ↔ ∀ a : Fin 3, win0_1.index t a * S2x1x8000.size a ≤ (i a).val
      ∧ (i a).val < win0_1.index t a * S2x1x8000.size a + S2x1x8000.size a := by
  show i ∈ ((View.whole main_v0).slice (win0_1.rect t)).set ↔ _
  rw [View.set_slice_whole, Rect.mem_set_unit]
  exact Iff.rfl

/-- Row n of the result lies in the block of point n / 2. -/
theorem cover (i : S32x1x8000.Idx) :
    ∃ t : Fin cfg0.N, (cfg0.win 1).flush t = true ∧ i ∈ ((cfg0.win 1).blk t).view.set := by
  have hi0 : (i 0).val < 32 := (i 0).isLt
  have hi1 : (i 1).val < 1 := (i 1).isLt
  have hi2 : (i 2).val < 8000 := (i 2).isLt
  have hN : cfg0.N = 16 := N_0
  refine ⟨⟨(i 0).val / 2, by rw [hN]; omega⟩, flush0_1 _, ?_⟩
  rw [mem_blk]
  obtain ⟨-, -, -, e0, e1, e2⟩ := idx_facts ⟨(i 0).val / 2, by rw [hN]; omega⟩
  intro a
  match a with
  | ⟨0, _⟩ =>
    show win0_1.index _ (0 : Fin 3) * 2 ≤ (i 0).val ∧ (i 0).val < win0_1.index _ (0 : Fin 3) * 2 + 2
    rw [e0]; show (i 0).val / 2 * 2 ≤ (i 0).val ∧ (i 0).val < (i 0).val / 2 * 2 + 2; omega
  | ⟨1, _⟩ =>
    show win0_1.index _ (1 : Fin 3) * 1 ≤ (i 1).val ∧ (i 1).val < win0_1.index _ (1 : Fin 3) * 1 + 1
    rw [e1]; omega
  | ⟨2, _⟩ =>
    show win0_1.index _ (2 : Fin 3) * 8000 ≤ (i 2).val ∧ (i 2).val < win0_1.index _ (2 : Fin 3) * 8000 + 8000
    rw [e2]; omega

/-- The result array after the run: `colSums` of the argument as launched. -/
theorem final (c : Dev nD) :
    (dats m 0 c).arrAt 1 cfg0.N = colSums (m ((c : Thread nD τ).loc main_arg0)) :=
  ((dats m 0 c).arrAt_eq_of_cover 1 (colSums (V m c main_arg0)) (fun t _ => flushed_eq m c t) cover).trans
    (congrArg colSums (V_main_arg0 m c))

end Cert.KernelIdeal.TimeSum

end
-- ==== Proof.HostTail.lean ====
/-
  The host operations both programs apply after the column sums, as ONE function.

  From the [32, 8000] column sums `agg` and the integer targets `tg` both programs compute the same thing with the same
  operations and the same literals: the histogram of the targets by a scatter-add of ones into zeros, both arrays divided
  by 256, the logarithm of the first times the second, summed over the classes, negated, summed over the rows and divided
  by 32.  It is written out once in each program's vocabulary (the shapes and shape facts carry the program's namespace,
  and are the same shapes and the same facts), and the two are one function; nothing downstream ever opens it.
-/
import proofs.«124172_j89240830476767_1_alg».proof.Proof.Gen.KernelIdeal
import proofs.«124172_j89240830476767_1_alg».proof.Proof.Gen.ReferenceIdeal

noncomputable section

open Idealize.ShloMosaic

namespace Cert.KernelIdeal.TimeSum

open Cert.KernelIdeal Cert.KernelIdeal.Gen

variable {F : FTy → Type} [FloatOps F]

/-- The loss from the column sums and the targets, in the kernel program's vocabulary. -/
def hostTail (agg : (⟨S32x8000, .f32⟩ : BufTy).Contents (Elt F)) (tg : (⟨S32x64, .i32⟩ : BufTy).Contents (Elt F)) :
    (⟨S_, .f32⟩ : BufTy).Contents (Elt F) :=
  Host.divf (Host.reduceAdd (Host.negf (Host.reduceAdd (mulf (Host.log (Host.divf agg (broadcastInDim S32x8000 ![] bcast_S_S32x8000 (constant S_ .f32 0x43800000#32)))) (Host.divf (Host.scatterAdd scatter_S32x8000_S32x64x2_S32x64_n_01_01_2 (broadcastInDim S32x8000 ![] bcast_S_S32x8000 (constant S_ .f32 0x00000000#32)) (concatenate S32x64x2 2 [⟨S32x64x1, (broadcastInDim S32x64x1 ![0, 1] bcast_S32x64_S32x64x1_0_1 (broadcastInDim S32x64 ![0, 1] bcast_S32x1_S32x64_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩, ⟨S32x64x1, (broadcastInDim S32x64x1 ![0, 1] bcast_S32x64_S32x64x1_0_1 (select (cmpi .slt tg (broadcastInDim S32x64 ![] bcast_S_S32x64 (constantI S_ 32 0#32))) (addi tg (broadcastInDim S32x64 ![] bcast_S_S32x64 (constantI S_ 32 8000#32))) tg))⟩] concatenates_S32x64x1_S32x64x1_S32x64x2_d2) (broadcastInDim S32x64 ![] bcast_S_S32x64 (constant S_ .f32 0x3F800000#32))) (broadcastInDim S32x8000 ![] bcast_S_S32x8000 (constant S_ .f32 0x43800000#32)))) (constant S_ .f32 0x00000000#32) reducesTo_S32x8000_S32_d1 h_S_)) (constant S_ .f32 0x00000000#32) reducesTo_S32_S_d0 h_S_) (constant S_ .f32 0x42000000#32)

end Cert.KernelIdeal.TimeSum

namespace Cert.ReferenceIdeal.TimeSum

open Cert.ReferenceIdeal Cert.ReferenceIdeal.Gen

variable {F : FTy → Type} [FloatOps F]

/-- The loss from the column sums and the targets, in the reference program's vocabulary. -/
def hostTail (agg : (⟨S32x8000, .f32⟩ : BufTy).Contents (Elt F)) (tg : (⟨S32x64, .i32⟩ : BufTy).Contents (Elt F)) :
    (⟨S_, .f32⟩ : BufTy).Contents (Elt F) :=
  Host.divf (Host.reduceAdd (Host.negf (Host.reduceAdd (mulf (Host.log (Host.divf agg (broadcastInDim S32x8000 ![] bcast_S_S32x8000 (constant S_ .f32 0x43800000#32)))) (Host.divf (Host.scatterAdd scatter_S32x8000_S32x64x2_S32x64_n_01_01_2 (broadcastInDim S32x8000 ![] bcast_S_S32x8000 (constant S_ .f32 0x00000000#32)) (concatenate S32x64x2 2 [⟨S32x64x1, (broadcastInDim S32x64x1 ![0, 1] bcast_S32x64_S32x64x1_0_1 (broadcastInDim S32x64 ![0, 1] bcast_S32x1_S32x64_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩, ⟨S32x64x1, (broadcastInDim S32x64x1 ![0, 1] bcast_S32x64_S32x64x1_0_1 (select (cmpi .slt tg (broadcastInDim S32x64 ![] bcast_S_S32x64 (constantI S_ 32 0#32))) (addi tg (broadcastInDim S32x64 ![] bcast_S_S32x64 (constantI S_ 32 8000#32))) tg))⟩] concatenates_S32x64x1_S32x64x1_S32x64x2_d2) (broadcastInDim S32x64 ![] bcast_S_S32x64 (constant S_ .f32 0x3F800000#32))) (broadcastInDim S32x8000 ![] bcast_S_S32x8000 (constant S_ .f32 0x43800000#32)))) (constant S_ .f32 0x00000000#32) reducesTo_S32x8000_S32_d1 h_S_)) (constant S_ .f32 0x00000000#32) reducesTo_S32_S_d0 h_S_) (constant S_ .f32 0x42000000#32)

/-- The two spellings are one function: the same operations over the same shapes, the shape facts propositions. -/
theorem hostTail_eq (agg : (⟨S32x8000, .f32⟩ : BufTy).Contents (Elt F)) (tg : (⟨S32x64, .i32⟩ : BufTy).Contents (Elt F)) :
    Cert.KernelIdeal.TimeSum.hostTail (F := F) agg tg = hostTail (F := F) agg tg := rfl

end Cert.ReferenceIdeal.TimeSum

end
-- ==== Proof.KernelRun.lean ====
/-
  The kernel program's run, read: its result is the shared host tail of the region's column sums.

  After the region the program reshapes the [32, 1, 8000] result to [32, 8000] (dropping the unit axis moves no entry)
  and applies the host operations of the tail to it and to the targets.  The frame run states the result buffer as
  those operations folded over the memory the region leaves: the region's output array at what the 16 blocks wrote,
  every other buffer as launched.  So the result is the tail of (the reshaped column sums, the targets as launched).
-/
import proofs.«124172_j89240830476767_1_alg».proof.Proof.Gen.KernelIdeal.Frame
import proofs.«124172_j89240830476767_1_alg».proof.Proof.RegionArray
import proofs.«124172_j89240830476767_1_alg».proof.Proof.HostTail
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.TimeSum

open Cert.KernelIdeal Cert.KernelIdeal.Gen

variable (m : (ℓ : Loc nD τ sig) → Buf (Elt Ideal) ℓ) (ρ : Dev nD → PrngReg)

/-- The [32, 1, 8000] region result viewed as [32, 8000]: the host's reshape. -/
def dropUnit (Y : S32x1x8000.Idx → Elt Ideal .f32) : (⟨S32x8000, .f32⟩ : BufTy).Contents (Elt Ideal) :=
  fun i => shapeCast S32x8000 Y shapeCasts_S32x1x8000_S32x8000 i

/-- The region's output array, read out of the memory the region leaves, is the column sums of the argument. -/
theorem left_v0 (c : Dev nD) :
    Pipeline.withArrays (cfgs 0).spec c (V0 m c) (fun w => (dats m 0 c).arrAt w (cfgs 0).N) (Proc.devRef .tc main_v0)
      = colSums (m ((c : Thread nD τ).loc main_arg0)) :=
  (Pipeline.withArrays_arr spec0 launch0.win.arr_inj c _ _ 1).trans (final m c)

/-- The targets are no array of the region: they are read as launched. -/
theorem left_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

set_option maxHeartbeats 2000000 in
/-- The program's result buffer after the host operations that follow the region. -/
theorem tail_eq (c : Dev nD) :
    Pipeline.afterTail₀ cfgs (dats m) 0 (V0 m) [hostOps1] c main_v30
      = hostTail (F := Ideal) (dropUnit (colSums (m ((c : Thread nD τ).loc main_arg0)))) (m ((c : Thread nD τ).loc main_arg1)) := by
  unfold Pipeline.afterTail₀
  show StableHlo.after hostOps1 _ (Proc.devRef .tc main_v30) = _
  after_results
  rw [left_v0 m c, left_arg1 m c]
  rfl

/-- The run: the result at the tail of the column sums, the arguments unchanged. -/
theorem run : θ_run defs (onTc (τ := τ) (main (F := Ideal))) ⟨m, fun _ => 0, ρ⟩ fun r => ∀ c : Dev nD,
      r.2.mem ((c.tc : Thread nD τ).loc main_v30)
        = hostTail (F := Ideal) (dropUnit (colSums (m ((c : Thread nD τ).loc main_arg0)))) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v30 (Pipeline.mem_restRefs_of main_v30 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.TimeSum

end
-- ==== Proof.ShiftedSum.lean ====
/-
  The arithmetic that joins the two programs, with no program in sight.

  The kernel sums a column of 256 entries and then adds ONE constant; the reference adds a constant to EACH of the
  256 entries and then sums.  In an additive commutative monoid — the extended reals are one, infinities included —
  a sum of shifted terms is the sum of the terms plus as many copies of the shift as there are terms, so the two
  agree exactly when the kernel's constant is 256 copies of the reference's.  It is: the two float words have the
  same significand 0x5BE6FF, and the kernel's exponent field is larger by 8, so as real numbers the kernel's word is
  14411519 / 2^49 and the reference's is 14411519 / 2^57, a factor 2^8 = 256 apart.  No finiteness of the summed
  entries is used anywhere.
-/
import Idealize.ShloMosaic.PureOps.Ideal
import Mathlib.Algebra.BigOperators.Group.Finset.Basic
import Mathlib.Data.EReal.Basic

noncomputable section

open scoped BigOperators
open Idealize.ShloMosaic

namespace Cert.ShiftedSum

/-- A sum of `n` terms each shifted by `c` is the sum of the terms plus `n` copies of `c`. -/
theorem sum_add_const {M : Type*} [AddCommMonoid M] (n : ℕ) (x : Fin n → M) (c : M) :
    ∑ k : Fin n, (x k + c) = (∑ k : Fin n, x k) + n • c := by
  rw [Finset.sum_add_distrib, Finset.sum_const, Finset.card_univ, Fintype.card_fin]

/-- The reference's shift, the f32 word nearest to 1e-10, is the real number 14411519 / 2^57. -/
theorem word_ref : Ideal.ofBits .f32 0x2EDBE6FF#32 = ((14411519 / 2 ^ 57 : ℝ) : EReal) := by
  simp [Ideal.ofBits, Ideal.ieee, -EReal.coe_mul]; norm_num

/-- The kernel's shift, the f32 word nearest to 2.56e-8, is the real number 14411519 / 2^49. -/
theorem word_ker : Ideal.ofBits .f32 0x32DBE6FF#32 = ((14411519 / 2 ^ 49 : ℝ) : EReal) := by
  simp [Ideal.ofBits, Ideal.ieee, -EReal.coe_mul]; norm_num

/-- So the kernel's shift is exactly 256 copies of the reference's. -/
theorem word_ker_eq : Ideal.ofBits .f32 0x32DBE6FF#32 = (256 : ℕ) • Ideal.ofBits .f32 0x2EDBE6FF#32 := by
  rw [word_ker, word_ref, ← EReal.coe_nsmul]
  congr 1
  norm_num

/-- The zero word is zero. -/
theorem word_zero : Ideal.ofBits .f32 0x00000000#32 = (0 : EReal) := by
  simp [Ideal.ofBits, Ideal.ieee]

/-- The law in the form both programs meet it: 256 entries, the reference's side on the left (zero initial value,
    every entry shifted by its word), the kernel's on the right (the plain sum, then its word). -/
theorem shifted_sum (x : Fin 256 → EReal) :
    Ideal.ofBits .f32 0x00000000#32 + ∑ k : Fin 256, (x k + Ideal.ofBits .f32 0x2EDBE6FF#32)
      = (∑ k : Fin 256, x k) + Ideal.ofBits .f32 0x32DBE6FF#32 := by
  rw [word_zero, zero_add, sum_add_const, word_ker_eq]

end Cert.ShiftedSum

end
-- ==== Proof.ReferenceValue.lean ====
/-
  The reference, read: its result is the shared host tail of ITS column sums, and its column sums are the kernel's.

  The reference adds its constant to every entry of the argument and sums each column over the 256 time steps from a
  zero initial value: at (n, k) that is 0 + the sum over t of (x(n, t, k) + c).  A sum of 256 shifted terms is the plain
  sum plus 256 copies of the shift, and 256 copies of the reference's constant are exactly the kernel's constant, so
  the reference's column sum at (n, k) is the plain column sum plus the kernel's constant.
-/
import proofs.«124172_j89240830476767_1_alg».proof.Proof.Gen.ReferenceIdeal.Read
import proofs.«124172_j89240830476767_1_alg».proof.Proof.HostTail
import proofs.«124172_j89240830476767_1_alg».proof.Proof.ShiftedSum
import Idealize.ShloMosaic.Lib.ValueIdx

noncomputable section

open scoped BigOperators
open Idealize.ShloMosaic Idealize.ShloMosaic.ValueIdx

namespace Cert.ReferenceIdeal.TimeSum

open Cert.ReferenceIdeal Cert.ReferenceIdeal.Gen Cert.ReferenceIdeal.Read

/-- The index the host's sum inserts on the time axis: (n, t, k) over (n, k). -/
theorem idx_eq (n : Fin 32) (k : Fin 8000) (t : Fin 256) : idx_main_v2 (ix2 n k) t = ix3 n t k :=
  funext fun d => Fin.ext (by match d with | ⟨0, _⟩ => rfl | ⟨1, _⟩ => rfl | ⟨2, _⟩ => rfl)

/-- One shifted entry: the argument at (n, t, k) plus the reference's constant. -/
theorem shifted_apply (X : (⟨S32x256x8000, .f32⟩ : BufTy).Contents (Elt Ideal)) (n : Fin 32) (k : Fin 8000) (t : Fin 256) :
    val_main_v1 (F := Ideal) X (idx_main_v2 (ix2 n k) t) = X (ix3 n t k) + Ideal.ofBits .f32 0x2EDBE6FF#32 := by
  rw [idx_eq]
  refine (val_main_v1_apply X (ix3 n t k)).trans ?_
  rw [val_main_v0_apply, val_main_cst_apply]
  rfl

/-- The reference's column sum at (n, k): the plain sum over the time steps plus the KERNEL's constant. -/
theorem colSum_apply (X : (⟨S32x256x8000, .f32⟩ : BufTy).Contents (Elt Ideal)) (n : Fin 32) (k : Fin 8000) :
    val_main_v2 (F := Ideal) X (ix2 n k) = (∑ t : Fin 256, X (ix3 n t k)) + Ideal.ofBits .f32 0x32DBE6FF#32 := by
  refine (val_main_v2_apply X (ix2 n k)).trans ?_
  rw [val_main_cst_0_apply, Finset.sum_congr rfl fun t _ => shifted_apply X n k t]
  exact Cert.ShiftedSum.shifted_sum fun t => X (ix3 n t k)

/-- The reference's result, as its run states it, is the shared tail of its column sums and the targets. -/
theorem result_eq (X : (⟨S32x256x8000, .f32⟩ : BufTy).Contents (Elt Ideal)) (tg : (⟨S32x64, .i32⟩ : BufTy).Contents (Elt Ideal)) :
    val_main_v31 (F := Ideal) X tg = hostTail (F := Ideal) (val_main_v2 (F := Ideal) X) tg := rfl

end Cert.ReferenceIdeal.TimeSum

end
-- ==== Proof.Bridge.lean ====
/-
  The two programs compute one function.

  Index by index, the kernel's column sums — the region's [32, 1, 8000] result with its unit axis dropped — are the
  reference's: at (n, k) both are the sum over the 256 time steps of the argument at (n, t, k) plus the kernel's
  constant (for the reference by the law of a shifted sum; see ShiftedSum).  Both programs then apply the same host
  tail to their column sums and the same targets, so their results are equal.
-/
import proofs.«124172_j89240830476767_1_alg».proof.Proof.KernelRun
import proofs.«124172_j89240830476767_1_alg».proof.Proof.ReferenceValue
import Idealize.ShloMosaic.Lib.Pipeline.Value
import Idealize.ShloMosaic.Lib.ValueIdx

noncomputable section

open scoped BigOperators
open Idealize.ShloMosaic Idealize.ShloMosaic.ValueIdx

namespace Cert.TimeSumBridge

open Cert.KernelIdeal.TimeSum

/-- The kernel's column sums with the unit axis dropped are the reference's column sums. -/
theorem colSums_eq (X : (⟨Cert.ReferenceIdeal.S32x256x8000, .f32⟩ : BufTy).Contents (Elt Ideal)) :
    dropUnit (colSums X) = Cert.ReferenceIdeal.Read.val_main_v2 (F := Ideal) X := by
  funext i
  obtain ⟨n, k, rfl⟩ : ∃ (n : Fin 32) (k : Fin 8000), i = ix2 n k := ⟨i 0, i 1, eq_ix2 i⟩
  rw [Cert.ReferenceIdeal.TimeSum.colSum_apply]
  unfold dropUnit
  refine (shapeCast_apply _ _ (ix2 n k) (ix3 n (0 : Fin 1) k) ?_).trans ?_
  · rw [Shape.rowMajor_val_three, Shape.rowMajor_val_two]
    show (n.val * 1 + 0) * 8000 + k.val = n.val * 8000 + k.val
    omega
  · rfl

/-- The reference's result is the kernel's: the shared tail of equal column sums and the same targets. -/
theorem result_eq (X : (⟨Cert.ReferenceIdeal.S32x256x8000, .f32⟩ : BufTy).Contents (Elt Ideal))
    (tg : (⟨Cert.ReferenceIdeal.S32x64, .i32⟩ : BufTy).Contents (Elt Ideal)) :
    Cert.ReferenceIdeal.Read.val_main_v31 (F := Ideal) X tg = hostTail (F := Ideal) (dropUnit (colSums X)) tg := by
  rw [Cert.ReferenceIdeal.TimeSum.result_eq, colSums_eq, Cert.ReferenceIdeal.TimeSum.hostTail_eq]

end Cert.TimeSumBridge

end
-- ==== Proof.lean ====
/-
  The proof of `Cert.Claim`: the three frames, the (empty) idealization ledger, and the value claim.

  The kernel sums the [32, 256, 8000] argument over its time axis, two rows per grid point, and adds ONE constant to each
  column sum; the reference adds a constant to EVERY entry and then sums.  The kernel's constant is exactly 256 times the
  reference's (same significand, exponent field larger by 8), and a sum of 256 shifted terms is the plain sum plus 256
  copies of the shift — in the extended reals too, infinities included, so the precondition is never opened.  After the
  column sums both programs apply the same host operations (the targets' histogram, the divisions by 256, the logarithm,
  the product, the two sums, the negation, the division by 32), carried as one function that is never unfolded.

  The frames of the two kernel programs and the reference's run are generated modules; the value leg is in
  ShiftedSum (the arithmetic), BodyValue (the body's store at an index), RegionArray (blocks to array), HostTail (the
  shared tail), KernelRun and ReferenceValue (each program's result as the tail of its column sums) and Bridge.
-/
import proofs.«124172_j89240830476767_1_alg».proof.Defs
import proofs.«124172_j89240830476767_1_alg».proof.Proof.Gen.Kernel
import proofs.«124172_j89240830476767_1_alg».proof.Proof.Gen.Kernel.Skeleton
import proofs.«124172_j89240830476767_1_alg».proof.Proof.Gen.Kernel.Launch
import proofs.«124172_j89240830476767_1_alg».proof.Proof.Gen.Kernel.Points
import proofs.«124172_j89240830476767_1_alg».proof.Proof.Gen.Kernel.Frame
import proofs.«124172_j89240830476767_1_alg».proof.Proof.Gen.KernelIdeal
import proofs.«124172_j89240830476767_1_alg».proof.Proof.Gen.KernelIdeal.Skeleton
import proofs.«124172_j89240830476767_1_alg».proof.Proof.Gen.KernelIdeal.Launch
import proofs.«124172_j89240830476767_1_alg».proof.Proof.Gen.KernelIdeal.Points
import proofs.«124172_j89240830476767_1_alg».proof.Proof.Gen.KernelIdeal.Frame
import proofs.«124172_j89240830476767_1_alg».proof.Proof.Gen.ReferenceIdeal
import proofs.«124172_j89240830476767_1_alg».proof.Proof.Gen.Pre_finite_inputs
import proofs.«124172_j89240830476767_1_alg».proof.Proof.Gen.ReferenceIdeal.Run
import proofs.«124172_j89240830476767_1_alg».proof.Proof.Gen.ReferenceIdeal.Read
import proofs.«124172_j89240830476767_1_alg».proof.Proof.Bridge
import Idealize.ShloMosaic.Adequacy
import Idealize.ShloMosaic.Init

noncomputable section

namespace Cert.Proof

open Idealize.ShloMosaic Idealize.SL.Sem

/-- The word-level kernel runs and leaves its arguments unchanged (generated frame). -/
theorem frame_kernel : Cert.frame_Kernel := fun m ρ _ => Cert.Kernel.Gen.frame m ρ

/-- So does its idealization (generated frame). -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the shared host tail of
    the column sums plus the kernel's constant, and of the targets. -/
theorem algebraic : Cert.algebraic_KernelIdeal_ReferenceIdeal := by
  intro m ρ m' ρ' _ hagree
  refine ⟨_, Cert.KernelIdeal.TimeSum.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v31_eq _ _).trans (Cert.TimeSumBridge.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
